-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x128x4 : Shape := ⟨3, ![128, 128, 4]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128x4 : S_.BroadcastsInDim S128x128x4 (![] : Fin 0 → Fin S128x128x4.rank)
  reducesTo_S128x128x4_S_d0_1_2 : S128x128x4.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x128 .f32) (main_arg1 : FVec F S128x128x4 .f32) (main_arg2 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128x4 .f32 := Host.absf main_arg1
  let main_cst_0 : FVec F S_ .f32 := constant S_ .f32 0x7F800000#32
  let main_v5 : FVec F S128x128x4 .f32 := broadcastInDim S128x128x4 ![] bcast_S_S128x128x4 main_cst_0
  let main_v6 : IVec S128x128x4 1 := cmpf .olt main_v4 main_v5
  let main_c_1 : IVec S_ 1 := constantI S_ 1 1#1
  let main_v7 : IVec S_ 1 := (fun x v => Host.reduce IntOp.andi x v reducesTo_S128x128x4_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4096x128 : Shape := ⟨2, ![4096, 128]⟩
abbrev S128x128x4 : Shape := ⟨3, ![128, 128, 4]⟩
abbrev S128x128 : Shape := ⟨2, ![128, 128]⟩
abbrev S128x128x1 : Shape := ⟨3, ![128, 128, 1]⟩
abbrev S4096x128x128 : Shape := ⟨3, ![4096, 128, 128]⟩
abbrev S128x128x128 : Shape := ⟨3, ![128, 128, 128]⟩
abbrev S1x128x128 : Shape := ⟨3, ![1, 128, 128]⟩
abbrev S32x128 : Shape := ⟨2, ![32, 128]⟩
abbrev S32x1x128 : Shape := ⟨3, ![32, 1, 128]⟩
abbrev S32x128x128 : Shape := ⟨3, ![32, 128, 128]⟩

abbrev nBuf : Space → Nat
  | .hbm => 15
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S128x128x4, .f32⟩
  | .hbm, ⟨2, _⟩ => ⟨S128x128, .f32⟩
  | .hbm, ⟨3, _⟩ => ⟨S128x128x1, .f32⟩
  | .hbm, ⟨4, _⟩ => ⟨S128x128, .f32⟩
  | .hbm, ⟨5, _⟩ => ⟨S128x128x1, .f32⟩
  | .hbm, ⟨6, _⟩ => ⟨S128x128, .f32⟩
  | .hbm, ⟨7, _⟩ => ⟨S128x128x1, .f32⟩
  | .hbm, ⟨8, _⟩ => ⟨S128x128, .f32⟩
  | .hbm, ⟨9, _⟩ => ⟨S128x128, .f32⟩
  | .hbm, ⟨10, _⟩ => ⟨S128x128x1, .f32⟩
  | .hbm, ⟨11, _⟩ => ⟨S128x128, .f32⟩
  | .hbm, ⟨12, _⟩ => ⟨S128x128, .f32⟩
  | .hbm, ⟨13, _⟩ => ⟨S4096x128, .f32⟩
  | .hbm, ⟨14, _⟩ => ⟨S4096x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128x128, .f32⟩
  | .local _ .vmem, ⟨9, _⟩ => ⟨S128x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c32_i32 : BitVec 32 := 32#32
  let v12 : BitVec 32 := Scalar.muli c0_i32 c32_i32
  v12
def k0_off1 (c0_i32 : BitVec 32) : Fin 2 → Nat :=
  let c32_i32 : BitVec 32 := 32#32
  let v12 : BitVec 32 := Scalar.muli c0_i32 c32_i32
  let v13 : BitVec 32 := v12
  let v14 : Index := Scalar.indexCast v13
  let c0_7 : Index := 0#32
  ![v14.toNat, 0]
def k0_off2 (c0_i32 : BitVec 32) : Fin 3 → Nat :=
  let c32_i32 : BitVec 32 := 32#32
  let v12 : BitVec 32 := Scalar.muli c0_i32 c32_i32
  let v13 : BitVec 32 := v12
  let v27 : Index := Scalar.indexCast v13
  let c0_8 : Index := 0#32
  let c0_9 : Index := 0#32
  ![v27.toNat, 0, 0]
def k0_mult2 : BitVec 32 :=
  let c1_i32 : BitVec 32 := 1#32
  let c32_i32_11 : BitVec 32 := 32#32
  let v32 : BitVec 32 := Scalar.muli c1_i32 c32_i32_11
  v32
def k0_mult3 : BitVec 32 :=
  let c2_i32 : BitVec 32 := 2#32
  let c32_i32_17 : BitVec 32 := 32#32
  let v52 : BitVec 32 := Scalar.muli c2_i32 c32_i32_17
  v52
def k0_mult4 : BitVec 32 :=
  let c3_i32 : BitVec 32 := 3#32
  let c32_i32_23 : BitVec 32 := 32#32
  let v72 : BitVec 32 := Scalar.muli c3_i32 c32_i32_23
  v72
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S128x128x4_S128x128x1_0_0_0 : S128x128x4.Slices ![0, 0, 0] S128x128x1
  shapeCasts_S128x128x1_S128x128 : S128x128x1.ShapeCasts S128x128
  slices_S128x128x4_S128x128x1_0_0_1 : S128x128x4.Slices ![0, 0, 1] S128x128x1
  slices_S128x128x4_S128x128x1_0_0_2 : S128x128x4.Slices ![0, 0, 2] S128x128x1
  slices_S128x128x4_S128x128x1_0_0_3 : S128x128x4.Slices ![0, 0, 3] S128x128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  h_S32x128 : 0 < S32x128.numel
  shapeCasts_S32x128_S32x1x128 : S32x128.ShapeCasts S32x1x128
  broadcasts_S1x128x128_S32x128x128 : S1x128x128.Broadcasts S32x128x128
  broadcasts_S32x1x128_S32x128x128 : S32x1x128.Broadcasts S32x128x128
  h_S32x128x128 : 0 < S32x128x128.numel
  reduces_S32x128x128_S32x128 : S32x128x128.Reduces [2] S32x128
  hrank0 : 0 < grid0.rank
  k0_mult1_dvd : 32 ∣ k0_mult1.toNat
  k0_off1_inb : ∀ (r : Fin 4), ∀ a, (k0_off1 (BitVec.ofNat 32 r.val)) a + S32x128.size a ≤ S128x128.size a
  k0_off2_inb : ∀ (r : Fin 4), ∀ a, (k0_off2 (BitVec.ofNat 32 r.val)) a + S32x128x128.size a ≤ S128x128x128.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S4096x128.size a
  hwx0_5 : ∀ i : grid0.Coords, EltTy.bits .f32 = 32 ∨ (Rect.block (s := S4096x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128x128.size a ≤ S4096x128x128.size a
  hwx0_6 : ∀ i : grid0.Coords, EltTy.bits .f32 = 32 ∨ (Rect.block (s := S4096x128x128) S128x128x128.size (cc0_transform_6 i) (hinb0_6 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S128x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x128x4 : Shape := ⟨3, ![128, 128, 4]⟩
abbrev S128x128 : Shape := ⟨2, ![128, 128]⟩
abbrev S128x128x1 : Shape := ⟨3, ![128, 128, 1]⟩
abbrev S4096x1x128 : Shape := ⟨3, ![4096, 1, 128]⟩
abbrev S1x128x128 : Shape := ⟨3, ![1, 128, 128]⟩
abbrev S4096x128x128 : Shape := ⟨3, ![4096, 128, 128]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x128x4, .f32⟩
  | .hbm, ⟨2, _⟩ => ⟨S128x128, .f32⟩
  | .hbm, ⟨3, _⟩ => ⟨S128x128x1, .f32⟩
  | .hbm, ⟨4, _⟩ => ⟨S128x128, .f32⟩
  | .hbm, ⟨5, _⟩ => ⟨S128x128x1, .f32⟩
  | .hbm, ⟨6, _⟩ => ⟨S128x128, .f32⟩
  | .hbm, ⟨7, _⟩ => ⟨S128x128x1, .f32⟩
  | .hbm, ⟨8, _⟩ => ⟨S128x128, .f32⟩
  | .hbm, ⟨9, _⟩ => ⟨S128x128x1, .f32⟩
  | .hbm, ⟨10, _⟩ => ⟨S128x128, .f32⟩
  | .hbm, ⟨11, _⟩ => ⟨S4096x1x128, .f32⟩
  | .hbm, ⟨12, _⟩ => ⟨S1x128x128, .f32⟩
  | .hbm, ⟨13, _⟩ => ⟨S4096x128x128, .f32⟩
  | .hbm, ⟨14, _⟩ => ⟨S4096x128x128, .f32⟩
  | .hbm, ⟨15, _⟩ => ⟨S4096x128x128, .f32⟩
  | .hbm, ⟨16, _⟩ => ⟨S1x128x128, .f32⟩
  | .hbm, ⟨17, _⟩ => ⟨S4096x128x128, .f32⟩
  | .hbm, ⟨18, _⟩ => ⟨S4096x128x128, .f32⟩
  | .hbm, ⟨19, _⟩ => ⟨S4096x128x128, .f32⟩
  | .hbm, ⟨20, _⟩ => ⟨S1x128x128, .f32⟩
  | .hbm, ⟨21, _⟩ => ⟨S4096x128x128, .f32⟩
  | .hbm, ⟨22, _⟩ => ⟨S4096x128x128, .f32⟩
  | .hbm, ⟨23, _⟩ => ⟨S1x128x128, .f32⟩
  | .hbm, ⟨24, _⟩ => ⟨S4096x128x128, .f32⟩
  | .hbm, ⟨25, _⟩ => ⟨S4096x128x128, .f32⟩
  | .hbm, ⟨26, _⟩ => ⟨S1x128x128, .f32⟩
  | .hbm, ⟨27, _⟩ => ⟨S4096x128x128, .f32⟩
  | .hbm, ⟨28, _⟩ => ⟨S4096x128x128, .f32⟩
  | .hbm, ⟨29, _⟩ => ⟨S_, .f32⟩
  | .hbm, ⟨30, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩

abbrev nD : Nat := 1
abbrev τ : Topo := Topo.v7x

variable {F : FTy → Type} [FloatOps F]

class Facts₀ : Prop where
  slices_S128x128x4_S128x128x1_0_0_0 : S128x128x4.Slices ![0, 0, 0] S128x128x1
  shapeCasts_S128x128x1_S128x128 : S128x128x1.ShapeCasts S128x128
  slices_S128x128x4_S128x128x1_0_0_1 : S128x128x4.Slices ![0, 0, 1] S128x128x1
  slices_S128x128x4_S128x128x1_0_0_2 : S128x128x4.Slices ![0, 0, 2] S128x128x1
  slices_S128x128x4_S128x128x1_0_0_3 : S128x128x4.Slices ![0, 0, 3] S128x128x1
  bcast_S4096x128_S4096x1x128_0_2 : S4096x128.BroadcastsInDim S4096x1x128 (![0, 2] : Fin 2 → Fin S4096x1x128.rank)
  bcast_S128x128_S1x128x128_1_2 : S128x128.BroadcastsInDim S1x128x128 (![1, 2] : Fin 2 → Fin S1x128x128.rank)
  bcast_S1x128x128_S4096x128x128_0_1_2 : S1x128x128.BroadcastsInDim S4096x128x128 (![0, 1, 2] : Fin 3 → Fin S4096x128x128.rank)
  bcast_S4096x1x128_S4096x128x128_0_1_2 : S4096x1x128.BroadcastsInDim S4096x128x128 (![0, 1, 2] : Fin 3 → Fin S4096x128x128.rank)
  reducesTo_S4096x128x128_S4096x128_d2 : S4096x128x128.ReducesTo [2] S4096x128
  h_S_ : 0 < S_.numel

variable [Facts₀]

class Facts : Prop extends Facts₀ where

variable [Facts]
-- ==== Proof.EdgeLaw.lean ====
/-
  The scalar law that joins the two programs, on the extended reals.

  One edge (o, i) of the layer carries four coefficients a, b, c, d; fed the input entry x it
  produces  edge x a b c d = c · sin (a · x + b) + d,  and the layer multiplies that by the edge's
  mask entry m.  The reference applies the mask last,  m · (c · sin (a · x + b) + d);  the kernel folds
  it into the two outer coefficients beforehand,  (c · m) · sin (a · x + b) + d · m.  On real numbers
  the two are equal by distributivity and commutativity; on the extended reals distributivity fails
  at the infinities, so the law is stated for real arguments, where every intermediate value is again
  real (the sine of a real number is real).
-/
import Idealize.ShloMosaic.PureOps.Ideal

noncomputable section

namespace Cert.EdgeLaw

open Idealize.ShloMosaic

/-- What one edge does to its input: an affine map, the sine, another affine map. -/
def edge (x a b c d : EReal) : EReal := c * Ideal.sin (a * x + b) + d

/-- The masked activation with the mask applied last (the reference's arrangement). -/
def maskedLast (x a b c d m : EReal) : EReal := m * edge x a b c d

/-- The masked activation with the mask folded into the outer coefficients (the kernel's arrangement). -/
def maskedFirst (x a b c d m : EReal) : EReal := edge x a b (c * m) (d * m)

/-- On real arguments the two arrangements agree: every intermediate value is real, and there
    (c·m)·s + d·m = m·(c·s + d) is distributivity. -/
theorem maskedFirst_eq_maskedLast (x a b c d m : ℝ) :
    maskedFirst (x : EReal) a b c d m = maskedLast (x : EReal) a b c d m := by
  unfold maskedFirst maskedLast edge
  rw [← EReal.coe_mul a x, ← EReal.coe_add, Ideal.sin_coe, ← EReal.coe_mul c m, ← EReal.coe_mul, ← EReal.coe_mul d m,
    ← EReal.coe_add, ← EReal.coe_mul c, ← EReal.coe_add, ← EReal.coe_mul]
  congr 1
  ring

end Cert.EdgeLaw

end
-- ==== Proof.LibMiddleUnit.lean ====
/-
  A shape cast that inserts a unit axis in the MIDDLE of a rank-2 array, read at an index.

  A `[a, b]` array cast to `[a, 1, b]` (what `x.reshape(a, 1, b)` lowers to: a per-row vector given a unit row
  axis so that it can be cut into `[1, 1, tile]` blocks) reads, at `(e, u, i)`, the operand at `(e, i)`: both sit at
  row-major position `e · b + i`, the unit coordinate `u` being zero.  The library's leading-unit-axis casts
  (`[a, b] → [1, a, b]`) do not cover this placement of the unit axis.
-/
import Idealize.ShloMosaic.Lib.Pipeline.Value
import Idealize.ShloMosaic.Lib.ValueIdx

noncomputable section

namespace Cert.LibMiddleUnit

open Idealize.ShloMosaic Idealize.ShloMosaic.ValueIdx

/-- An `[a, b]` array cast to `[a, 1, b]` reads, at `(e, u, i)`, the operand at `(e, i)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (i : Fin b) :
    shapeCast ⟨3, ![a, 1, b]⟩ x h (ix3 e u i) = x (ix2 e i) :=
  shapeCast_apply x h _ _ (by
    rw [Shape.rowMajor_val_two, Shape.rowMajor_val_three]
    show e.val * b + i.val = (e.val * 1 + u.val) * b + i.val
    have hu : u.val = 0 := by have := u.isLt; omega
    rw [hu, Nat.mul_one, Nat.add_zero])

end Cert.LibMiddleUnit

end
-- ==== Proof.ChunkValue.lean ====
/-
  One chunk of the kernel's body, read at an index.

  The body walks its 128-row block of the batch in four chunks of 32 rows.  For every chunk it
  broadcasts the four coefficient blocks A, B, C, D : [128, 128] along a new leading axis, gives the
  32 rows Xc : [32, 128] a unit middle axis and broadcasts them across the output units, and stores
      C (o, i) · sin (A (o, i) · Xc (r, i) + B (o, i)) + D (o, i)          at (r, o, i),
  followed by the sums of those over i at (r, o).  The printed body spells the four chunks in four
  different groupings of the same operations; each is the first chunk's term, by unfolding.
-/
import proofs.«111357_j78005196030432_2_alg».proof.Proof.Gen.KernelIdeal.Skeleton
import proofs.«111357_j78005196030432_2_alg».proof.Proof.EdgeLaw
import proofs.«111357_j78005196030432_2_alg».proof.Proof.LibMiddleUnit
import Idealize.ShloMosaic.Lib.ValueLayout
import Idealize.ShloMosaic.PureOps.Ideal.Laws

noncomputable section

namespace Cert.ChunkValue

open Cert.KernelIdeal Cert.KernelIdeal.Gen Idealize.ShloMosaic Idealize.ShloMosaic.ValueIdx

/-! ## The four spellings are one term -/

section Spellings

variable {F : FTy → Type} [FloatOps F]
variable (A B C D : Vec F S128x128 .f32) (Xc : Vec F S32x128 .f32)

/-- The second chunk's stored value is the first chunk's term of its own rows. -/
theorem chunk1_eq : k0_pay11 (k0_pay4 B) (k0_pay5 C) (k0_pay6 D) (k0_pay9 A) (k0_pay10 Xc) = k0_pay7 A B C D Xc := rfl

/-- The third chunk's. -/
theorem chunk2_eq : k0_pay13 (k0_pay3 A) (k0_pay4 B) (k0_pay5 C) (k0_pay6 D) Xc = k0_pay7 A B C D Xc := rfl

/-- The fourth chunk's. -/
theorem chunk3_eq : k0_pay1 (k0_pay5 C) (k0_pay6 D) (k0_pay15 (k0_pay3 A) Xc) (k0_pay16 (k0_pay4 B)) = k0_pay7 A B C D Xc := rfl

/-- And the four row sums are the lane sum of the stored value. -/
theorem sums1_eq : k0_pay12 (k0_pay4 B) (k0_pay5 C) (k0_pay6 D) (k0_pay9 A) (k0_pay10 Xc) = k0_pay8 A B C D Xc := rfl
theorem sums2_eq : k0_pay14 (k0_pay3 A) (k0_pay4 B) (k0_pay5 C) (k0_pay6 D) Xc = k0_pay8 A B C D Xc := rfl
theorem sums3_eq : k0_pay2 (k0_pay5 C) (k0_pay6 D) (k0_pay15 (k0_pay3 A) Xc) (k0_pay16 (k0_pay4 B)) = k0_pay8 A B C D Xc := rfl

end Spellings

/-! ## The first chunk's term at an index -/

/-- A [1, 128, 128] array broadcast along its unit axis to 32 rows reads, at (r, o, i), the array at (0, o, i). -/
theorem bcast_edges {α : Type} (L : S1x128x128.Idx → α) (h : S1x128x128.Broadcasts S32x128x128) (r : Fin 32) (o i : Fin 128) :
    broadcastTo S32x128x128 L h (ix3 r o i) = L (ix3 (0 : Fin 1) o i) :=
  broadcastTo_apply L h (ix3 r o i) (ix3 (0 : Fin 1) o i) (fun a => match a with
    | ⟨0, _⟩ => by show (0 : ℕ) = if (1 : ℕ) = 1 then 0 else r.val; rw [if_pos rfl]
    | ⟨1, _⟩ => by show o.val = if (128 : ℕ) = 1 then 0 else o.val; rw [if_neg (by decide)]
    | ⟨2, _⟩ => by show i.val = if (128 : ℕ) = 1 then 0 else i.val; rw [if_neg (by decide)])

/-- A [32, 1, 128] array broadcast along its unit axis to 128 output units reads, at (r, o, i), the array at (r, 0, i). -/
theorem bcast_rows {α : Type} (L : S32x1x128.Idx → α) (h : S32x1x128.Broadcasts S32x128x128) (r : Fin 32) (o i : Fin 128) :
    broadcastTo S32x128x128 L h (ix3 r o i) = L (ix3 r (0 : Fin 1) i) :=
  broadcastTo_apply L h (ix3 r o i) (ix3 r (0 : Fin 1) i) (fun a => match a with
    | ⟨0, _⟩ => by show r.val = if (32 : ℕ) = 1 then 0 else r.val; rw [if_neg (by decide)]
    | ⟨1, _⟩ => by show (0 : ℕ) = if (1 : ℕ) = 1 then 0 else o.val; rw [if_pos rfl]
    | ⟨2, _⟩ => by show i.val = if (128 : ℕ) = 1 then 0 else i.val; rw [if_neg (by decide)])

/-- A coefficient block given its leading unit axis reads, at (u, o, i), the block at (o, i). -/
theorem lifted_apply {α : Type} (E : S128x128.Idx → α) (h1 : S128x128.ShapeCasts S128x128) (h2 : S128x128.ShapeCasts S1x128x128)
    (u : Fin 1) (o i : Fin 128) :
    shapeCast S1x128x128 (shapeCast S128x128 E h1) h2 (ix3 u o i) = E (ix2 o i) :=
  (shapeCast_ab_1ab_apply _ h2 u o i).trans (congrFun (shapeCast_self E h1) _)

variable (A B C D : Vec Ideal S128x128 .f32) (Xc : Vec Ideal S32x128 .f32)

/-- The stored value of a chunk at (r, o, i): the edge (o, i) applied to row r of the chunk. -/
theorem chunk_apply (r : Fin 32) (o i : Fin 128) :
    k0_pay7 A B C D Xc (ix3 r o i)
      = EdgeLaw.edge (Xc (ix2 r i)) (A (ix2 o i)) (B (ix2 o i)) (C (ix2 o i)) (D (ix2 o i)) := by
  unfold k0_pay7 k0_pay3 k0_pay4 k0_pay5 k0_pay6 EdgeLaw.edge
  show broadcastTo S32x128x128 (shapeCast S1x128x128 (shapeCast S128x128 C _) _) _ (ix3 r o i)
      * Ideal.sin (broadcastTo S32x128x128 (shapeCast S1x128x128 (shapeCast S128x128 A _) _) _ (ix3 r o i)
          * broadcastTo S32x128x128 (shapeCast S32x1x128 Xc _) _ (ix3 r o i)
        + broadcastTo S32x128x128 (shapeCast S1x128x128 (shapeCast S128x128 B _) _) _ (ix3 r o i))
      + broadcastTo S32x128x128 (shapeCast S1x128x128 (shapeCast S128x128 D _) _) _ (ix3 r o i) = _
  rw [bcast_edges, bcast_edges, bcast_edges, bcast_edges, bcast_rows, lifted_apply, lifted_apply, lifted_apply, lifted_apply,
    LibMiddleUnit.shapeCast_ab_a1b_apply]

/-- The stored row sums of a chunk at (r, o): the sum over the incoming edges i of the stored values. -/
theorem sums_apply (r : Fin 32) (o : Fin 128) :
    k0_pay8 A B C D Xc (ix2 r o)
      = ∑ i : Fin 128, EdgeLaw.edge (Xc (ix2 r i)) (A (ix2 o i)) (B (ix2 o i)) (C (ix2 o i)) (D (ix2 o i)) := by
  unfold k0_pay8
  refine (Ideal.multiReduction_add_single (k0_pay7 A B C D Xc) 0x00000000#32 reduces_S32x128x128_S32x128 (.inl rfl) rfl
    (ix2 r o)).trans ?_
  refine Finset.sum_congr rfl fun i _ => ?_
  refine (congrArg (k0_pay7 A B C D Xc) ?_).trans (chunk_apply A B C D Xc r o i)
  funext a; apply Fin.ext
  match a with
  | ⟨0, _⟩ => rfl
  | ⟨1, _⟩ => rfl
  | ⟨2, _⟩ => rfl

end Cert.ChunkValue

end
-- ==== Proof.LibLoadAt.lean ====
/-
  Small facts about reading an array at an index written by coordinates: a load through a rectangle of a two- or
  three-axis array (the rectangle's offset is added, coordinate by coordinate), and a sum over the columns of a matrix
  taken row by row. General: nothing here mentions a program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLoadAt

open Idealize.ShloMosaic Idealize.ShloMosaic.ValueIdx

variable {Val : EltTy → Type} {e : EltTy}

/-- A load through the unit-stride rectangle at offset `(o0, o1)` with extents `(m0, m1)` of an `[n0, n1]` array reads,
    at `(a, b)`, the array at `(o0 + a, o1 + b)`. -/
theorem ld2_at {n0 n1 m0 m1 : ℕ} (X : (⟨2, ![n0, n1]⟩ : Shape).Idx → Val e) (o0 o1 : ℕ)
    (inb : ∀ a, (![o0, o1] : Fin 2 → ℕ) a + (⟨2, ![m0, m1]⟩ : Shape).size a ≤ (⟨2, ![n0, n1]⟩ : Shape).size a)
    (a : Fin m0) (b : Fin m1) (a' : Fin n0) (b' : Fin n1) (ha : a'.val = o0 + a.val) (hb : b'.val = o1 + b.val) :
    View.ld X (Rect.unit (s := ⟨2, ![n0, n1]⟩) ![o0, o1] (⟨2, ![m0, m1]⟩ : Shape).size inb) (ix2 a b) = X (ix2 a' b') := by
  show X ((Rect.unit (s := ⟨2, ![n0, n1]⟩) ![o0, o1] (⟨2, ![m0, m1]⟩ : Shape).size inb).emb (ix2 a b)) = _
  refine congrArg X (funext fun d => Fin.ext ?_)
  match d with
  | ⟨0, _⟩ => show o0 + 1 * a.val = a'.val; omega
  | ⟨1, _⟩ => show o1 + 1 * b.val = b'.val; omega

/-- The same for a three-axis array. -/
theorem ld3_at {n0 n1 n2 m0 m1 m2 : ℕ} (X : (⟨3, ![n0, n1, n2]⟩ : Shape).Idx → Val e) (o0 o1 o2 : ℕ)
    (inb : ∀ a, (![o0, o1, o2] : Fin 3 → ℕ) a + (⟨3, ![m0, m1, m2]⟩ : Shape).size a ≤ (⟨3, ![n0, n1, n2]⟩ : Shape).size a)
    (a : Fin m0) (b : Fin m1) (c : Fin m2) (a' : Fin n0) (b' : Fin n1) (c' : Fin n2)
    (ha : a'.val = o0 + a.val) (hb : b'.val = o1 + b.val) (hc : c'.val = o2 + c.val) :
    View.ld X (Rect.unit (s := ⟨3, ![n0, n1, n2]⟩) ![o0, o1, o2] (⟨3, ![m0, m1, m2]⟩ : Shape).size inb) (ix3 a b c)
      = X (ix3 a' b' c') := by
  show X ((Rect.unit (s := ⟨3, ![n0, n1, n2]⟩) ![o0, o1, o2] (⟨3, ![m0, m1, m2]⟩ : Shape).size inb).emb (ix3 a b c)) = _
  refine congrArg X (funext fun d => Fin.ext ?_)
  match d with
  | ⟨0, _⟩ => show o0 + 1 * a.val = a'.val; omega
  | ⟨1, _⟩ => show o1 + 1 * b.val = b'.val; omega
  | ⟨2, _⟩ => show o2 + 1 * c.val = c'.val; omega

/-- A sum over the columns of an `[a, b]` matrix from the neutral accumulator, read at row `y`, is `Σ_k src (y, k)`. -/
theorem rowsum_at {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (y : Fin a) :
    multiReduction .add [1] (⟨1, ![a]⟩ : Shape) src acc h hφ hacc (ix1 y) = ∑ k : Fin b, src (ix2 y k) := by
  rw [Ideal.multiReduction_add_single]
  refine Finset.sum_congr rfl fun k _ => congrArg src ?_
  funext c; apply Fin.ext
  fin_cases c <;> rfl

end Cert.LibLoadAt

end
-- ==== Proof.BlockValue.lean ====
/-
  What the body leaves in its two output blocks, as functions of its five input blocks.

  At a grid point the body holds a block X : [128, 128] of batch rows and the four coefficient
  blocks A, B, C, D : [128, 128].  Its four chunks store, at rows 32k .. 32k + 31, the edge values
      C (o, i) · sin (A (o, i) · X (row, i) + B (o, i)) + D (o, i)
  into the activations' block and their sums over i into the sums' block.  The four stores tile each
  block, every store holds the rows of ONE function of the block index, so each block ends holding
  that function.
-/
import proofs.«111357_j78005196030432_2_alg».proof.Proof.Gen.KernelIdeal.Frame
import proofs.«111357_j78005196030432_2_alg».proof.Proof.ChunkValue
import proofs.«111357_j78005196030432_2_alg».proof.Proof.LibLoadAt
import Idealize.ShloMosaic.Lib.Pipeline.Value
import Idealize.ShloMosaic.Lib.Tactic

noncomputable section

namespace Cert.BlockValue

open Cert.KernelIdeal Cert.KernelIdeal.Gen Idealize.ShloMosaic Idealize.ShloMosaic.TcCoe Idealize.ShloMosaic.Tactic
open Idealize.ShloMosaic.ValueIdx Idealize.SL.Sem

variable (X A B C D : Vec Ideal S128x128 .f32)

/-- The activations' block: edge (o, i) applied to row r of the batch block, at (r, o, i). -/
def blockActs : Vec Ideal S128x128x128 .f32 := fun y =>
  EdgeLaw.edge (X (ix2 (y 0) (y 2))) (A (ix2 (y 1) (y 2))) (B (ix2 (y 1) (y 2))) (C (ix2 (y 1) (y 2))) (D (ix2 (y 1) (y 2)))

/-- The sums' block: those values summed over the incoming edges i, at (r, o). -/
def blockSums : Vec Ideal S128x128 .f32 := fun y =>
  ∑ i : Fin 128, EdgeLaw.edge (X (ix2 (y 0) i)) (A (ix2 (y 1) i)) (B (ix2 (y 1) i)) (C (ix2 (y 1) i)) (D (ix2 (y 1) i))

theorem hz2 : (![0, 0] : Fin 2 → Nat) = fun _ => 0 := funext fun a => by fin_cases a <;> rfl

/-- The chunk stored at row offset K holds rows K .. K + 31 of the activations' block. -/
theorem piece_acts (K : ℕ) (pf3 : ∀ a, (![K, 0, 0] : Fin 3 → ℕ) a + S32x128x128.size a ≤ S128x128x128.size a)
    (pf2 : ∀ a, (![K, 0] : Fin 2 → ℕ) a + S32x128.size a ≤ S128x128.size a) (x : S32x128x128.Idx) :
    k0_pay7 A B C D (View.ld X (Rect.unit (s := S128x128) ![K, 0] S32x128.size pf2)) x
      = blockActs X A B C D ((Rect.unit (s := S128x128x128) ![K, 0, 0] S32x128x128.size pf3).emb x) := by
  obtain ⟨r, o, i, rfl⟩ : ∃ (r : Fin 32) (o i : Fin 128), x = ix3 r o i := ⟨x 0, x 1, x 2, eq_ix3 x⟩
  refine (ChunkValue.chunk_apply A B C D _ r o i).trans ?_
  have hX : View.ld X (Rect.unit (s := S128x128) ![K, 0] S32x128.size pf2) (ix2 r i)
      = X (ix2 (((Rect.unit (s := S128x128x128) ![K, 0, 0] S32x128x128.size pf3).emb (ix3 r o i)) 0)
          (((Rect.unit (s := S128x128x128) ![K, 0, 0] S32x128x128.size pf3).emb (ix3 r o i)) 2)) := by
    show X ((Rect.unit (s := S128x128) ![K, 0] S32x128.size pf2).emb (ix2 r i)) = _
    refine congrArg X (funext fun d => Fin.ext ?_)
    match d with
    | ⟨0, _⟩ => rfl
    | ⟨1, _⟩ => rfl
  have hE : (ix2 o i : S128x128.Idx)
      = ix2 (((Rect.unit (s := S128x128x128) ![K, 0, 0] S32x128x128.size pf3).emb (ix3 r o i)) 1)
          (((Rect.unit (s := S128x128x128) ![K, 0, 0] S32x128x128.size pf3).emb (ix3 r o i)) 2) :=
    funext fun d => Fin.ext (by
      match d with
      | ⟨0, _⟩ => show o.val = 0 + 1 * o.val; omega
      | ⟨1, _⟩ => show i.val = 0 + 1 * i.val; omega)
  rw [hX, hE]
  rfl

/-- The chunk's sums stored at row offset K hold rows K .. K + 31 of the sums' block. -/
theorem piece_sums (K : ℕ) (pf2 : ∀ a, (![K, 0] : Fin 2 → ℕ) a + S32x128.size a ≤ S128x128.size a) (x : S32x128.Idx) :
    k0_pay8 A B C D (View.ld X (Rect.unit (s := S128x128) ![K, 0] S32x128.size pf2)) x
      = blockSums X A B C D ((Rect.unit (s := S128x128) ![K, 0] S32x128.size pf2).emb x) := by
  obtain ⟨r, o, rfl⟩ : ∃ (r : Fin 32) (o : Fin 128), x = ix2 r o := ⟨x 0, x 1, eq_ix2 x⟩
  refine (ChunkValue.sums_apply A B C D _ r o).trans ?_
  unfold blockSums
  refine Finset.sum_congr rfl fun i _ => ?_
  have hX : View.ld X (Rect.unit (s := S128x128) ![K, 0] S32x128.size pf2) (ix2 r i)
      = X (ix2 (((Rect.unit (s := S128x128) ![K, 0] S32x128.size pf2).emb (ix2 r o)) 0) i) := by
    show X ((Rect.unit (s := S128x128) ![K, 0] S32x128.size pf2).emb (ix2 r i)) = _
    refine congrArg X (funext fun d => Fin.ext ?_)
    match d with
    | ⟨0, _⟩ => rfl
    | ⟨1, _⟩ => show 0 + 1 * i.val = i.val; omega
  have hE : (ix2 o i : S128x128.Idx) = ix2 (((Rect.unit (s := S128x128) ![K, 0] S32x128.size pf2).emb (ix2 r o)) 1) i :=
    funext fun d => Fin.ext (by
      match d with
      | ⟨0, _⟩ => show o.val = 0 + 1 * o.val; omega
      | ⟨1, _⟩ => rfl)
  rw [hX, hE]
  rfl

/-- After the body, the activations' staging buffer holds the activations' block of the five input blocks. -/
theorem acts_block (c : Dev nD) (i : grid0.Coords) (a1 : Memref sig .tc .vmem S128x128 .f32) (h1 : a1.IsWhole)
    (a2 : Memref sig .tc .vmem S128x128 .f32) (h2 : a2.IsWhole) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (a6 : Memref sig .tc .vmem S128x128 .f32) (h6 : a6.IsWhole) (a7 : Memref sig .tc .vmem S128x128x128 .f32) (h7 : a7.IsWhole) :
    out0_A_6 (F := Ideal) c i a1 h1 a2 h2 a3 h3 a4 h4 a5 h5 a6 h6 a7 h7 X A B C D = blockActs X A B C D := by
  funext y
  unfold out0_A_6
  rw [View.read_writes_eq_canon _ _ _ (cover0_A_6 c i a1 h1 a2 h2 a3 h3 a4 h4 a5 h5 a6 h6 a7 h7 X A B C D)]
  refine View.canon_apply_of_pieces (blockActs X A B C D) _ ?_ y
    (cover0_A_6 c i a1 h1 a2 h2 a3 h3 a4 h4 a5 h5 a6 h6 a7 h7 X A B C D y)
  unfold kernelRun0_A
  dsimp only
  sl_unfold_words
  simp only [View.readAt_eq_ld, h1.read_unread, h2.read_unread, h3.read_unread, h4.read_unread, h5.read_unread,
    View.ld_unit_zero (S := S128x128) hz2]
  intro p hp
  simp only [List.mem_cons, List.not_mem_nil, or_false] at hp
  rcases hp with rfl | rfl | rfl | rfl
  · intro x; dsimp only; rw [ChunkValue.chunk3_eq]; exact piece_acts X A B C D 96 _ _ x
  · intro x; dsimp only; rw [ChunkValue.chunk2_eq]; exact piece_acts X A B C D 64 _ _ x
  · intro x; dsimp only; rw [ChunkValue.chunk1_eq]; exact piece_acts X A B C D 32 _ _ x
  · intro x; dsimp only; exact piece_acts X A B C D 0 _ _ x

/-- After the body, the sums' staging buffer holds the sums' block of the five input blocks. -/
theorem sums_block (c : Dev nD) (i : grid0.Coords) (a1 : Memref sig .tc .vmem S128x128 .f32) (h1 : a1.IsWhole)
    (a2 : Memref sig .tc .vmem S128x128 .f32) (h2 : a2.IsWhole) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (a6 : Memref sig .tc .vmem S128x128 .f32) (h6 : a6.IsWhole) (a7 : Memref sig .tc .vmem S128x128x128 .f32) (h7 : a7.IsWhole) :
    out0_A_5 (F := Ideal) c i a1 h1 a2 h2 a3 h3 a4 h4 a5 h5 a6 h6 a7 h7 X A B C D = blockSums X A B C D := by
  funext y
  unfold out0_A_5
  rw [View.read_writes_eq_canon _ _ _ (cover0_A_5 c i a1 h1 a2 h2 a3 h3 a4 h4 a5 h5 a6 h6 a7 h7 X A B C D)]
  refine View.canon_apply_of_pieces (blockSums X A B C D) _ ?_ y
    (cover0_A_5 c i a1 h1 a2 h2 a3 h3 a4 h4 a5 h5 a6 h6 a7 h7 X A B C D y)
  unfold kernelRun0_A
  dsimp only
  sl_unfold_words
  simp only [View.readAt_eq_ld, h1.read_unread, h2.read_unread, h3.read_unread, h4.read_unread, h5.read_unread,
    View.ld_unit_zero (S := S128x128) hz2]
  intro p hp
  simp only [List.mem_cons, List.not_mem_nil, or_false] at hp
  rcases hp with rfl | rfl | rfl | rfl
  · intro x; dsimp only; rw [ChunkValue.sums3_eq]; exact piece_sums X A B C D 96 _ x
  · intro x; dsimp only; rw [ChunkValue.sums2_eq]; exact piece_sums X A B C D 64 _ x
  · intro x; dsimp only; rw [ChunkValue.sums1_eq]; exact piece_sums X A B C D 32 _ x
  · intro x; dsimp only; exact piece_sums X A B C D 0 _ x

end Cert.BlockValue

end
-- ==== Proof.CoefPlane.lean ====
/-
  A coefficient plane read at an index.

  Both programs cut plane k of affine : [128, 128, 4] out as a [128, 128, 1] slice at offset (0, 0, k)
  and flatten it to [128, 128].  The flattening keeps the row-major position o · 128 + i, so the
  plane read at (o, i) is affine at (o, i, k).
-/
import Idealize.ShloMosaic.Lib.Pipeline.Value
import Idealize.ShloMosaic.Lib.ValueIdx

noncomputable section

namespace Cert.CoefPlane

open Idealize.ShloMosaic Idealize.ShloMosaic.ValueIdx

/-- Plane k of a [128, 128, 4] array, sliced and flattened, reads the array at (o, i, k). -/
theorem plane_apply {α : Type} (aff : (⟨3, ![128, 128, 4]⟩ : Shape).Idx → α) (kk : ℕ) (k : Fin 4) (hk : k.val = kk)
    (h1 : (⟨3, ![128, 128, 4]⟩ : Shape).Slices ![0, 0, kk] ⟨3, ![128, 128, 1]⟩)
    (h2 : (⟨3, ![128, 128, 1]⟩ : Shape).ShapeCasts ⟨2, ![128, 128]⟩) (o i : Fin 128) :
    shapeCast ⟨2, ![128, 128]⟩ (extractStridedSlice ⟨3, ![128, 128, 1]⟩ ![0, 0, kk] aff h1) h2 (ix2 o i)
      = aff (ix3 o i k) :=
  (shapeCast_apply _ h2 (ix2 o i) (ix3 o i (0 : Fin 1)) (by
      rw [Shape.rowMajor_val_three, Shape.rowMajor_val_two]
      show (o.val * 128 + i.val) * 1 + 0 = o.val * 128 + i.val
      omega)).trans
    (extractStridedSlice_apply ![0, 0, kk] aff h1 (ix3 o i (0 : Fin 1)) (ix3 o i k) (fun a => match a with
      | ⟨0, _⟩ => by show o.val = 0 + o.val; omega
      | ⟨1, _⟩ => by show i.val = 0 + i.val; omega
      | ⟨2, _⟩ => by show k.val = kk + 0; omega))

end Cert.CoefPlane

end
-- ==== Proof.LayerSpec.lean ====
/-
  What the layer computes, as functions of its three argument arrays, index by index.

  The arguments are the batch x : [4096, 128], the per-edge coefficients affine : [128, 128, 4]
  (edge (o, i) carries a, b, c, d at its last coordinate 0, 1, 2, 3) and the edge mask : [128, 128].
  Row n of the batch excites edge (o, i) to the activation

      act n o i  =  mask (o, i) · (c · sin (a · x (n, i) + b) + d),

  and the two results are the activations themselves, [4096, 128, 128], and their sums over the
  incoming edges i of every output unit o, [4096, 128].  The arrangement with the mask folded into
  c and d beforehand is stated beside it; on real arrays the two agree edge by edge.
-/
import Idealize.ShloMosaic.Lib.ValueIdx
import proofs.«111357_j78005196030432_2_alg».proof.Proof.EdgeLaw

noncomputable section

namespace Cert.LayerSpec

open Idealize.ShloMosaic Idealize.ShloMosaic.ValueIdx

/-- Indices of the batch (and of the summed result): row n, input unit i (output unit o). -/
abbrev RowIdx := (⟨2, ![4096, 128]⟩ : Shape).Idx
/-- Indices of the coefficient array: output unit o, input unit i, which of a, b, c, d. -/
abbrev CoefIdx := (⟨3, ![128, 128, 4]⟩ : Shape).Idx
/-- Indices of an edge array: output unit o, input unit i. -/
abbrev EdgeIdx := (⟨2, ![128, 128]⟩ : Shape).Idx
/-- Indices of the activations: row n, output unit o, input unit i. -/
abbrev ActIdx := (⟨3, ![4096, 128, 128]⟩ : Shape).Idx

/-- Every entry of an array of extended reals is a real number. -/
def AllReal {ι : Type} (f : ι → EReal) : Prop := ∀ j, ∃ r : ℝ, f j = (r : EReal)

variable (x : RowIdx → EReal) (aff : CoefIdx → EReal) (mask : EdgeIdx → EReal)

/-- The activation of edge (o, i) on row n, the mask applied last. -/
def act (n : Fin 4096) (o i : Fin 128) : EReal :=
  EdgeLaw.maskedLast (x (ix2 n i)) (aff (ix3 o i (0 : Fin 4))) (aff (ix3 o i (1 : Fin 4))) (aff (ix3 o i (2 : Fin 4)))
    (aff (ix3 o i (3 : Fin 4))) (mask (ix2 o i))

/-- The same activation with the mask folded into the outer coefficients first. -/
def actFolded (n : Fin 4096) (o i : Fin 128) : EReal :=
  EdgeLaw.maskedFirst (x (ix2 n i)) (aff (ix3 o i (0 : Fin 4))) (aff (ix3 o i (1 : Fin 4))) (aff (ix3 o i (2 : Fin 4)))
    (aff (ix3 o i (3 : Fin 4))) (mask (ix2 o i))

/-- On real arrays folding the mask in first changes nothing, edge by edge. -/
theorem actFolded_eq_act (hx : AllReal x) (ha : AllReal aff) (hm : AllReal mask) (n : Fin 4096) (o i : Fin 128) :
    actFolded x aff mask n o i = act x aff mask n o i := by
  obtain ⟨xr, hxr⟩ := hx (ix2 n i)
  obtain ⟨a, ha0⟩ := ha (ix3 o i (0 : Fin 4))
  obtain ⟨b, ha1⟩ := ha (ix3 o i (1 : Fin 4))
  obtain ⟨c, ha2⟩ := ha (ix3 o i (2 : Fin 4))
  obtain ⟨d, ha3⟩ := ha (ix3 o i (3 : Fin 4))
  obtain ⟨mr, hmr⟩ := hm (ix2 o i)
  unfold actFolded act
  rw [hxr, ha0, ha1, ha2, ha3, hmr]
  exact EdgeLaw.maskedFirst_eq_maskedLast xr a b c d mr

/-- First result's companion: all activations. -/
def acts : ActIdx → EReal := fun j => act x aff mask (j 0) (j 1) (j 2)

/-- The activations summed over the incoming edges of each output unit. -/
def sums : RowIdx → EReal := fun j => ∑ i : Fin 128, act x aff mask (j 0) (j 1) i

/-- The two results in the folded arrangement. -/
def actsFolded : ActIdx → EReal := fun j => actFolded x aff mask (j 0) (j 1) (j 2)
def sumsFolded : RowIdx → EReal := fun j => ∑ i : Fin 128, actFolded x aff mask (j 0) (j 1) i

theorem actsFolded_eq_acts (hx : AllReal x) (ha : AllReal aff) (hm : AllReal mask) :
    actsFolded x aff mask = acts x aff mask :=
  funext fun j => actFolded_eq_act x aff mask hx ha hm (j 0) (j 1) (j 2)

theorem sumsFolded_eq_sums (hx : AllReal x) (ha : AllReal aff) (hm : AllReal mask) :
    sumsFolded x aff mask = sums x aff mask :=
  funext fun j => Finset.sum_congr rfl fun i _ => actFolded_eq_act x aff mask hx ha hm (j 0) (j 1) i

end Cert.LayerSpec

end
-- ==== Proof.KernelValue.lean ====
/-
  The kernel's two result arrays, as functions of the argument arrays.

  Before the launch the host cuts the coefficient planes a, b, c, d out of affine and multiplies
  c and d by the mask.  Grid point t then sees rows 128 t .. 128 t + 127 of the batch and the four
  planes whole, and writes back block t of both results: the folded activations
      (c · mask)(o, i) · sin (a (o, i) · x (n, i) + b (o, i)) + (d · mask)(o, i),      n = 128 t + r,
  and their sums over i.  The 32 blocks tile both arrays, so the arrays end holding those functions.
-/
import proofs.«111357_j78005196030432_2_alg».proof.Proof.Gen.KernelIdeal.Value
import proofs.«111357_j78005196030432_2_alg».proof.Proof.BlockValue
import proofs.«111357_j78005196030432_2_alg».proof.Proof.CoefPlane
import proofs.«111357_j78005196030432_2_alg».proof.Proof.LayerSpec
import Idealize.ShloMosaic.Lib.StableHlo.Run

noncomputable section

namespace Cert.KernelValue

open Cert.KernelIdeal Cert.KernelIdeal.Gen Cert.KernelIdeal.Value Idealize.ShloMosaic Idealize.ShloMosaic.TcCoe
open Idealize.ShloMosaic.ValueIdx Idealize.SL.Sem Cert.LayerSpec
open Idealize.ShloMosaic.Pipeline (Dat)

/-! ## One grid point, over plain arrays -/

section Point

variable (x : RowIdx → EReal) (aff : CoefIdx → EReal) (mask : EdgeIdx → EReal)
variable (Xb A B C D : Vec Ideal S128x128 .f32) (T : ℕ)
variable (hX : ∀ (r i : Fin 128) (R : Fin 4096), R.val = 128 * T + r.val → Xb (ix2 r i) = x (ix2 R i))
variable (hA : ∀ o i : Fin 128, A (ix2 o i) = aff (ix3 o i (0 : Fin 4)))
variable (hB : ∀ o i : Fin 128, B (ix2 o i) = aff (ix3 o i (1 : Fin 4)))
variable (hC : ∀ o i : Fin 128, C (ix2 o i) = aff (ix3 o i (2 : Fin 4)) * mask (ix2 o i))
variable (hD : ∀ o i : Fin 128, D (ix2 o i) = aff (ix3 o i (3 : Fin 4)) * mask (ix2 o i))

include hX hA hB hC hD

/-- When the batch block holds rows 128 T .. of x and the coefficient blocks hold a, b, c · mask, d · mask, the
    activations' block at (r, o, i) is the folded activation of edge (o, i) on row 128 T + r. -/
theorem acts_point (y : S128x128x128.Idx) (Y : ActIdx) (h0 : (Y 0).val = 128 * T + (y 0).val) (h1 : (Y 1).val = (y 1).val)
    (h2 : (Y 2).val = (y 2).val) : BlockValue.blockActs Xb A B C D y = actsFolded x aff mask Y := by
  obtain ⟨r, o, i, rfl⟩ : ∃ (r o i : Fin 128), y = ix3 r o i := ⟨y 0, y 1, y 2, eq_ix3 y⟩
  obtain ⟨R, O, I, rfl⟩ : ∃ (R : Fin 4096) (O I : Fin 128), Y = ix3 R O I := ⟨Y 0, Y 1, Y 2, eq_ix3 Y⟩
  obtain rfl : O = o := Fin.ext h1
  obtain rfl : I = i := Fin.ext h2
  show EdgeLaw.edge (Xb (ix2 r I)) (A (ix2 O I)) (B (ix2 O I)) (C (ix2 O I)) (D (ix2 O I))
    = EdgeLaw.edge (x (ix2 R I)) (aff (ix3 O I (0 : Fin 4))) (aff (ix3 O I (1 : Fin 4)))
        (aff (ix3 O I (2 : Fin 4)) * mask (ix2 O I)) (aff (ix3 O I (3 : Fin 4)) * mask (ix2 O I))
  rw [hX r I R h0, hA, hB, hC, hD]

/-- … and the sums' block at (r, o) is the sum over i of those folded activations. -/
theorem sums_point (y : S128x128.Idx) (Y : RowIdx) (h0 : (Y 0).val = 128 * T + (y 0).val) (h1 : (Y 1).val = (y 1).val) :
    BlockValue.blockSums Xb A B C D y = sumsFolded x aff mask Y := by
  obtain ⟨r, o, rfl⟩ : ∃ (r o : Fin 128), y = ix2 r o := ⟨y 0, y 1, eq_ix2 y⟩
  obtain ⟨R, O, rfl⟩ : ∃ (R : Fin 4096) (O : Fin 128), Y = ix2 R O := ⟨Y 0, Y 1, eq_ix2 Y⟩
  obtain rfl : O = o := Fin.ext h1
  show (∑ i : Fin 128, EdgeLaw.edge (Xb (ix2 r i)) (A (ix2 O i)) (B (ix2 O i)) (C (ix2 O i)) (D (ix2 O i)))
    = ∑ i : Fin 128, EdgeLaw.edge (x (ix2 R i)) (aff (ix3 O i (0 : Fin 4))) (aff (ix3 O i (1 : Fin 4)))
        (aff (ix3 O i (2 : Fin 4)) * mask (ix2 O i)) (aff (ix3 O i (3 : Fin 4)) * mask (ix2 O i))
  refine Finset.sum_congr rfl fun i _ => ?_
  rw [hX r i R h0, hA, hB, hC, hD]

end Point

/-! ## The arrays the region finds -/

variable (m : (ℓ : Loc nD τ sig) → Buf (Elt Ideal) ℓ) (ρ : Dev nD → PrngReg)

/-- The launch contents of the batch, -/
abbrev argX (c : Dev nD) : RowIdx → EReal := m ((c : Thread nD τ).loc main_arg0)
/-- of the coefficients, -/
abbrev argAff (c : Dev nD) : CoefIdx → EReal := m ((c : Thread nD τ).loc main_arg1)
/-- and of the mask, on core c. -/
abbrev argMask (c : Dev nD) : EdgeIdx → EReal := m ((c : Thread nD τ).loc main_arg2)

/-- The printed index maps over the grid: the batch and the two results move one block per point along
    their leading axis; the four coefficient planes stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Plane a as the host leaves it. -/
theorem planeA_eq (c : Dev nD) : (V m c main_v1 : S128x128.Idx → EReal)
    = shapeCast S128x128 (extractStridedSlice S128x128x1 ![0, 0, 0] (m ((c : Thread nD τ).loc main_arg1))
        slices_S128x128x4_S128x128x1_0_0_0) shapeCasts_S128x128x1_S128x128 := by
  dsimp only [Gen.V, Gen.hostOps0]; after_results; rfl

/-- Plane b. -/
theorem planeB_eq (c : Dev nD) : (V m c main_v3 : S128x128.Idx → EReal)
    = shapeCast S128x128 (extractStridedSlice S128x128x1 ![0, 0, 1] (m ((c : Thread nD τ).loc main_arg1))
        slices_S128x128x4_S128x128x1_0_0_1) shapeCasts_S128x128x1_S128x128 := by
  dsimp only [Gen.V, Gen.hostOps0]; after_results; rfl

/-- Plane c times the mask. -/
theorem planeC_eq (c : Dev nD) : @Eq (S128x128.Idx → EReal) (V m c main_v6)
    (mulf (F := Ideal) (s := S128x128) (φ := .f32) (shapeCast S128x128 (extractStridedSlice S128x128x1 ![0, 0, 2]
        (m ((c : Thread nD τ).loc main_arg1)) slices_S128x128x4_S128x128x1_0_0_2) shapeCasts_S128x128x1_S128x128)
      (m ((c : Thread nD τ).loc main_arg2))) := by
  dsimp only [Gen.V, Gen.hostOps0]; after_results; rfl

/-- Plane d times the mask. -/
theorem planeD_eq (c : Dev nD) : @Eq (S128x128.Idx → EReal) (V m c main_v9)
    (mulf (F := Ideal) (s := S128x128) (φ := .f32) (shapeCast S128x128 (extractStridedSlice S128x128x1 ![0, 0, 3]
        (m ((c : Thread nD τ).loc main_arg1)) slices_S128x128x4_S128x128x1_0_0_3) shapeCasts_S128x128x1_S128x128)
      (m ((c : Thread nD τ).loc main_arg2))) := by
  dsimp only [Gen.V, Gen.hostOps0]; after_results; rfl

/-! ## The input blocks at a point -/

/-- The batch block at point t holds rows 128 t .. 128 t + 127 of x. -/
theorem rows_apply (c : Dev nD) (t : Fin cfg0.N) (r i : Fin 128) (R : Fin 4096) (hR : R.val = 128 * t.val + r.val) :
    (iblk m c 0 t : Vec Ideal S128x128 .f32) (ix2 r i)
      = argX m c (ix2 R i) := by
  obtain ⟨e0, e1, -⟩ := idx_facts t
  unfold iblk
  rw [View.read_apply]
  show V m c main_arg0 _ = argX m c _
  refine (congrFun (V_main_arg0 m c) _).trans ?_
  refine congrArg (argX m c) (funext fun a => Fin.ext ?_)
  match a with
  | ⟨0, _⟩ => show win0_0.index t (0 : Fin 2) * 128 + 1 * r.val = R.val; rw [e0, hR]; omega
  | ⟨1, _⟩ => show win0_0.index t (1 : Fin 2) * 128 + 1 * i.val = i.val; rw [e1]; omega

/-- The first coefficient block at every point is plane a. -/
theorem coefA_apply (c : Dev nD) (t : Fin cfg0.N) (o i : Fin 128) :
    (iblk m c 1 t : Vec Ideal S128x128 .f32) (ix2 o i)
      = argAff m c (ix3 o i (0 : Fin 4)) := by
  obtain ⟨-, -, e0, e1, -⟩ := idx_facts t
  unfold iblk
  rw [View.read_apply]
  show V m c main_v1 _ = _
  refine (congrArg (V m c main_v1 : S128x128.Idx → EReal) (a₂ := ix2 o i) (funext fun a => Fin.ext ?_)).trans ?_
  · match a with
    | ⟨0, _⟩ => show win0_1.index t (0 : Fin 2) * 128 + 1 * o.val = o.val; rw [e0]; omega
    | ⟨1, _⟩ => show win0_1.index t (1 : Fin 2) * 128 + 1 * i.val = i.val; rw [e1]; omega
  · exact (congrFun (planeA_eq m c) _).trans (CoefPlane.plane_apply _ 0 0 rfl _ _ o i)

/-- The second is plane b. -/
theorem coefB_apply (c : Dev nD) (t : Fin cfg0.N) (o i : Fin 128) :
    (iblk m c 2 t : Vec Ideal S128x128 .f32) (ix2 o i)
      = argAff m c (ix3 o i (1 : Fin 4)) := by
  obtain ⟨-, -, -, -, e0, e1, -⟩ := idx_facts t
  unfold iblk
  rw [View.read_apply]
  show V m c main_v3 _ = _
  refine (congrArg (V m c main_v3 : S128x128.Idx → EReal) (a₂ := ix2 o i) (funext fun a => Fin.ext ?_)).trans ?_
  · match a with
    | ⟨0, _⟩ => show win0_2.index t (0 : Fin 2) * 128 + 1 * o.val = o.val; rw [e0]; omega
    | ⟨1, _⟩ => show win0_2.index t (1 : Fin 2) * 128 + 1 * i.val = i.val; rw [e1]; omega
  · exact (congrFun (planeB_eq m c) _).trans (CoefPlane.plane_apply _ 1 1 rfl _ _ o i)

/-- The third is plane c with the mask folded in. -/
theorem coefC_apply (c : Dev nD) (t : Fin cfg0.N) (o i : Fin 128) :
    (iblk m c 3 t : Vec Ideal S128x128 .f32) (ix2 o i)
      = argAff m c (ix3 o i (2 : Fin 4)) * argMask m c (ix2 o i) := by
  obtain ⟨-, -, -, -, -, -, e0, e1, -⟩ := idx_facts t
  unfold iblk
  rw [View.read_apply]
  show V m c main_v6 _ = _
  refine (congrArg (V m c main_v6 : S128x128.Idx → EReal) (a₂ := ix2 o i) (funext fun a => Fin.ext ?_)).trans ?_
  · match a with
    | ⟨0, _⟩ => show win0_3.index t (0 : Fin 2) * 128 + 1 * o.val = o.val; rw [e0]; omega
    | ⟨1, _⟩ => show win0_3.index t (1 : Fin 2) * 128 + 1 * i.val = i.val; rw [e1]; omega
  · refine (congrFun (planeC_eq m c) _).trans ?_
    exact congrArg (· * argMask m c (ix2 o i))
      (CoefPlane.plane_apply _ 2 2 rfl _ _ o i)

/-- The fourth is plane d with the mask folded in. -/
theorem coefD_apply (c : Dev nD) (t : Fin cfg0.N) (o i : Fin 128) :
    (iblk m c 4 t : Vec Ideal S128x128 .f32) (ix2 o i)
      = argAff m c (ix3 o i (3 : Fin 4)) * argMask m c (ix2 o i) := by
  obtain ⟨-, -, -, -, -, -, -, -, e0, e1, -⟩ := idx_facts t
  unfold iblk
  rw [View.read_apply]
  show V m c main_v9 _ = _
  refine (congrArg (V m c main_v9 : S128x128.Idx → EReal) (a₂ := ix2 o i) (funext fun a => Fin.ext ?_)).trans ?_
  · match a with
    | ⟨0, _⟩ => show win0_4.index t (0 : Fin 2) * 128 + 1 * o.val = o.val; rw [e0]; omega
    | ⟨1, _⟩ => show win0_4.index t (1 : Fin 2) * 128 + 1 * i.val = i.val; rw [e1]; omega
  · refine (congrFun (planeD_eq m c) _).trans ?_
    exact congrArg (· * argMask m c (ix2 o i))
      (CoefPlane.plane_apply _ 3 3 rfl _ _ o i)

/-! ## What a point writes back -/

/-- The folded activations of the launch arguments, as contents of the second result array. -/
abbrev foldedActs (c : Dev nD) : Buf (Elt Ideal) ((c : Thread nD τ).loc main_v10_1) :=
  actsFolded (argX m c) (argAff m c) (argMask m c)

/-- Their sums, as contents of the first result array. -/
abbrev foldedSums (c : Dev nD) : Buf (Elt Ideal) ((c : Thread nD τ).loc main_v10_0) :=
  sumsFolded (argX m c) (argAff m c) (argMask m c)

/-- Point t writes back block t of the folded activations. -/
theorem flushed_acts (c : Dev nD) (t : Fin cfg0.N) :
    (dats m 0 c).flushed 6 t = ((cfg0.win 6).blk t).view.read (Elt Ideal) (foldedActs m c) := by
  obtain ⟨-, -, -, -, -, -, -, -, -, -, -, -, e0, e1, e2⟩ := idx_facts t
  refine (flushed6_A m c t).trans ?_
  refine (congrArg ((cfg0.win 6).cut (grid0.coords t)) (BlockValue.acts_block (iblk m c 0 t) (iblk m c 1 t) (iblk m c 2 t)
    (iblk m c 3 t) (iblk m c 4 t) c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t))).trans ?_
  funext j
  refine acts_point _ _ _ _ _ _ _ _ t.val (fun r i R hR => rows_apply m c t r i R hR) (coefA_apply m c t) (coefB_apply m c t)
    (coefC_apply m c t) (coefD_apply m c t) _ _ ?_ ?_ ?_
  · show win0_6.index t (0 : Fin 3) * 128 + 1 * (j 0).val = 128 * t.val + (j 0).val; rw [e0]; omega
  · show win0_6.index t (1 : Fin 3) * 128 + 1 * (j 1).val = (j 1).val; rw [e1]; omega
  · show win0_6.index t (2 : Fin 3) * 128 + 1 * (j 2).val = (j 2).val; rw [e2]; omega

/-- Point t writes back block t of their sums. -/
theorem flushed_sums (c : Dev nD) (t : Fin cfg0.N) :
    (dats m 0 c).flushed 5 t = ((cfg0.win 5).blk t).view.read (Elt Ideal) (foldedSums m c) := by
  obtain ⟨-, -, -, -, -, -, -, -, -, -, e0, e1, -⟩ := idx_facts t
  refine (flushed5_A m c t).trans ?_
  refine (congrArg ((cfg0.win 5).cut (grid0.coords t)) (BlockValue.sums_block (iblk m c 0 t) (iblk m c 1 t) (iblk m c 2 t)
    (iblk m c 3 t) (iblk m c 4 t) c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t))).trans ?_
  funext j
  refine sums_point _ _ _ _ _ _ _ _ t.val (fun r i R hR => rows_apply m c t r i R hR) (coefA_apply m c t) (coefB_apply m c t)
    (coefC_apply m c t) (coefD_apply m c t) _ _ ?_ ?_
  · show win0_5.index t (0 : Fin 2) * 128 + 1 * (j 0).val = 128 * t.val + (j 0).val; rw [e0]; omega
  · show win0_5.index t (1 : Fin 2) * 128 + 1 * (j 1).val = (j 1).val; rw [e1]; omega

/-! ## The blocks tile the arrays -/

/-- An index of the activations is in point t's block iff each coordinate is in the block's range. -/
theorem mem_blk_acts (t : Fin cfg0.N) (i : S4096x128x128.Idx) :
    i ∈ ((cfg0.win 6).blk t).view.set ↔ ∀ a : Fin 3, win0_6.index t a * S128x128x128.size a ≤ (i a).val
      ∧ (i a).val < win0_6.index t a * S128x128x128.size a + S128x128x128.size a := by
  show i ∈ ((View.whole main_v10_1).slice (win0_6.rect t)).set ↔ _
  rw [View.set_slice_whole, Rect.mem_set_unit]
  exact Iff.rfl

/-- The same for the sums. -/
theorem mem_blk_sums (t : Fin cfg0.N) (i : S4096x128.Idx) :
    i ∈ ((cfg0.win 5).blk t).view.set ↔ ∀ a : Fin 2, win0_5.index t a * S128x128.size a ≤ (i a).val
      ∧ (i a).val < win0_5.index t a * S128x128.size a + S128x128.size a := by
  show i ∈ ((View.whole main_v10_0).slice (win0_5.rect t)).set ↔ _
  rw [View.set_slice_whole, Rect.mem_set_unit]
  exact Iff.rfl

/-- Row n lies in the block of point n / 128. -/
theorem cover_acts (i : S4096x128x128.Idx) :
    ∃ t : Fin cfg0.N, (cfg0.win 6).flush t = true ∧ i ∈ ((cfg0.win 6).blk t).view.set := by
  have h0 : (i 0).val < 4096 := (i 0).isLt
  have h1 : (i 1).val < 128 := (i 1).isLt
  have h2 : (i 2).val < 128 := (i 2).isLt
  have hN : cfg0.N = 32 := N_0
  refine ⟨⟨(i 0).val / 128, by rw [hN]; omega⟩, flush0_6 _, ?_⟩
  obtain ⟨-, -, -, -, -, -, -, -, -, -, -, -, e0, e1, e2⟩ := idx_facts ⟨(i 0).val / 128, by rw [hN]; omega⟩
  rw [mem_blk_acts]
  intro a
  match a with
  | ⟨0, _⟩ =>
    show win0_6.index _ (0 : Fin 3) * 128 ≤ (i 0).val ∧ (i 0).val < win0_6.index _ (0 : Fin 3) * 128 + 128
    rw [e0]; show (i 0).val / 128 * 128 ≤ (i 0).val ∧ (i 0).val < (i 0).val / 128 * 128 + 128; omega
  | ⟨1, _⟩ =>
    show win0_6.index _ (1 : Fin 3) * 128 ≤ (i 1).val ∧ (i 1).val < win0_6.index _ (1 : Fin 3) * 128 + 128
    rw [e1]; omega
  | ⟨2, _⟩ =>
    show win0_6.index _ (2 : Fin 3) * 128 ≤ (i 2).val ∧ (i 2).val < win0_6.index _ (2 : Fin 3) * 128 + 128
    rw [e2]; omega

theorem cover_sums (i : S4096x128.Idx) :
    ∃ t : Fin cfg0.N, (cfg0.win 5).flush t = true ∧ i ∈ ((cfg0.win 5).blk t).view.set := by
  have h0 : (i 0).val < 4096 := (i 0).isLt
  have h1 : (i 1).val < 128 := (i 1).isLt
  have hN : cfg0.N = 32 := N_0
  refine ⟨⟨(i 0).val / 128, by rw [hN]; omega⟩, flush0_5 _, ?_⟩
  obtain ⟨-, -, -, -, -, -, -, -, -, -, e0, e1, -⟩ := idx_facts ⟨(i 0).val / 128, by rw [hN]; omega⟩
  rw [mem_blk_sums]
  intro a
  match a with
  | ⟨0, _⟩ =>
    show win0_5.index _ (0 : Fin 2) * 128 ≤ (i 0).val ∧ (i 0).val < win0_5.index _ (0 : Fin 2) * 128 + 128
    rw [e0]; show (i 0).val / 128 * 128 ≤ (i 0).val ∧ (i 0).val < (i 0).val / 128 * 128 + 128; omega
  | ⟨1, _⟩ =>
    show win0_5.index _ (1 : Fin 2) * 128 ≤ (i 1).val ∧ (i 1).val < win0_5.index _ (1 : Fin 2) * 128 + 128
    rw [e1]; omega

/-! ## The arrays after the run -/

theorem final_acts (c : Dev nD) : (dats m 0 c).arrAt 6 cfg0.N = foldedActs m c :=
  (dats m 0 c).arrAt_eq_of_cover 6 (foldedActs m c) (fun t _ => flushed_acts m c t) cover_acts

theorem final_sums (c : Dev nD) : (dats m 0 c).arrAt 5 cfg0.N = foldedSums m c :=
  (dats m 0 c).arrAt_eq_of_cover 5 (foldedSums m c) (fun t _ => flushed_sums m c t) cover_sums

/-- The kernel's run, read: both result arrays at the folded functions of the launch arguments, the arguments
    unchanged. -/
theorem run : θ_run defs (onTc (τ := τ) (main (F := Ideal))) ⟨m, fun _ => 0, ρ⟩ fun r => ∀ c : Dev nD,
      r.2.mem ((c : Thread nD τ).loc main_v10_0) = foldedSums m c
      ∧ r.2.mem ((c : Thread nD τ).loc main_v10_1) = foldedActs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_sums m c), (h c).2.1.trans (final_acts m c), (h c).2.2⟩)
    (run_blocks m ρ)

end Cert.KernelValue

end
-- ==== Proof.RefValue.lean ====
/-
  The reference computes the specification.

  Its program slices the four coefficient planes out of affine, broadcasts them and the batch to
  [4096, 128, 128], and applies  mask · (c · sin (a · x + b) + d)  pointwise; the second result is the
  host's sum over the last axis, started from the literal zero.  Read at an index, one operation at
  a time, this is the specification's activation of edge (o, i) on row n, and the sum over i of
  those activations.
-/
import proofs.«111357_j78005196030432_2_alg».proof.Proof.Gen.ReferenceIdeal.Read
import proofs.«111357_j78005196030432_2_alg».proof.Proof.LayerSpec
import Idealize.ShloMosaic.PureOps.Ideal.Laws

noncomputable section

namespace Cert.RefValue

open Cert.ReferenceIdeal Cert.ReferenceIdeal.Read Idealize.ShloMosaic Idealize.ShloMosaic.ValueIdx Cert.LayerSpec

/-- A two-coordinate index is the pair of its coordinates. -/
theorem pair_eq {n0 n1 : ℕ} (f : (⟨2, ![n0, n1]⟩ : Shape).Idx) (a : Fin n0) (b : Fin n1) (h0 : (f 0).val = a.val)
    (h1 : (f 1).val = b.val) : f = ix2 a b :=
  funext fun d => Fin.ext (by match d with | ⟨0, _⟩ => exact h0 | ⟨1, _⟩ => exact h1)

variable (x : S4096x128.Idx → EReal) (aff : S128x128x4.Idx → EReal) (mask : S128x128.Idx → EReal)

/-- Plane k of the coefficients, cut out as [128, 128, 1] and flattened to [128, 128], reads affine at (o, i, k):
    the flattening keeps the row-major position o · 128 + i. -/
theorem plane_a (o i : Fin 128) : val_main_v1 (F := Ideal) aff (ix2 o i) = aff (ix3 o i (0 : Fin 4)) := by
  rw [val_main_v1_apply, val_main_v0_apply]
  refine congrArg aff (funext fun a => Fin.ext ?_)
  have hi : i.val < 128 := i.isLt
  match a with
  | ⟨0, _⟩ => show (o.val * 128 + i.val) / 128 = o.val; omega
  | ⟨1, _⟩ => show (o.val * 128 + i.val) / 1 % 128 = i.val; omega
  | ⟨2, _⟩ => rfl

theorem plane_b (o i : Fin 128) : val_main_v3 (F := Ideal) aff (ix2 o i) = aff (ix3 o i (1 : Fin 4)) := by
  rw [val_main_v3_apply, val_main_v2_apply]
  refine congrArg aff (funext fun a => Fin.ext ?_)
  have hi : i.val < 128 := i.isLt
  match a with
  | ⟨0, _⟩ => show (o.val * 128 + i.val) / 128 = o.val; omega
  | ⟨1, _⟩ => show (o.val * 128 + i.val) / 1 % 128 = i.val; omega
  | ⟨2, _⟩ => rfl

theorem plane_c (o i : Fin 128) : val_main_v5 (F := Ideal) aff (ix2 o i) = aff (ix3 o i (2 : Fin 4)) := by
  rw [val_main_v5_apply, val_main_v4_apply]
  refine congrArg aff (funext fun a => Fin.ext ?_)
  have hi : i.val < 128 := i.isLt
  match a with
  | ⟨0, _⟩ => show (o.val * 128 + i.val) / 128 = o.val; omega
  | ⟨1, _⟩ => show (o.val * 128 + i.val) / 1 % 128 = i.val; omega
  | ⟨2, _⟩ => rfl

theorem plane_d (o i : Fin 128) : val_main_v7 (F := Ideal) aff (ix2 o i) = aff (ix3 o i (3 : Fin 4)) := by
  rw [val_main_v7_apply, val_main_v6_apply]
  refine congrArg aff (funext fun a => Fin.ext ?_)
  have hi : i.val < 128 := i.isLt
  match a with
  | ⟨0, _⟩ => show (o.val * 128 + i.val) / 128 = o.val; omega
  | ⟨1, _⟩ => show (o.val * 128 + i.val) / 1 % 128 = i.val; omega
  | ⟨2, _⟩ => rfl

/-- The reference's activations at (n, o, i) are the specification's. -/
theorem acts_apply (n : Fin 4096) (o i : Fin 128) :
    val_main_v25 (F := Ideal) x aff mask (ix3 n o i) = act x aff mask n o i := by
  have em : idx_main_v23 (idx_main_v24 (ix3 n o i)) = ix2 o i := pair_eq _ o i rfl rfl
  have ec : idx_main_v17 (idx_main_v18 (ix3 n o i)) = ix2 o i := pair_eq _ o i rfl rfl
  have ea : idx_main_v9 (idx_main_v10 (ix3 n o i)) = ix2 o i := pair_eq _ o i rfl rfl
  have eb : idx_main_v13 (idx_main_v14 (ix3 n o i)) = ix2 o i := pair_eq _ o i rfl rfl
  have ed : idx_main_v20 (idx_main_v21 (ix3 n o i)) = ix2 o i := pair_eq _ o i rfl rfl
  have ex : idx_main_v8 (idx_main_v11 (ix3 n o i)) = ix2 n i := pair_eq _ n i rfl rfl
  rw [val_main_v25_apply, val_main_v24_apply, val_main_v23_apply, val_main_v22_apply, val_main_v19_apply,
    val_main_v18_apply, val_main_v17_apply, val_main_v16_apply, val_main_v15_apply, val_main_v12_apply,
    val_main_v10_apply, val_main_v9_apply, val_main_v11_apply, val_main_v8_apply, val_main_v14_apply,
    val_main_v13_apply, val_main_v21_apply, val_main_v20_apply, em, ec, ea, eb, ed, ex, plane_a, plane_b, plane_c,
    plane_d]
  rfl

/-- The reference's first result is the specification's activations. -/
theorem acts_eq : val_main_v25 (F := Ideal) x aff mask = acts x aff mask :=
  funext fun j => (congrArg (val_main_v25 (F := Ideal) x aff mask) (eq_ix3 j)).trans (acts_apply x aff mask (j 0) (j 1) (j 2))

/-- The reference's sums at (n, o): zero plus the sum over i of the activations. -/
theorem sums_apply (n : Fin 4096) (o : Fin 128) :
    val_main_v26 (F := Ideal) x aff mask (ix2 n o) = ∑ i : Fin 128, act x aff mask n o i := by
  rw [val_main_v26_apply, val_main_cst_apply, Ideal.ofBits_def, Ideal.ofBits_zero_f32, zero_add]
  refine Finset.sum_congr rfl fun i _ => ?_
  refine (congrArg (val_main_v25 (F := Ideal) x aff mask) ?_).trans (acts_apply x aff mask n o i)
  funext a; apply Fin.ext
  match a with
  | ⟨0, _⟩ => rfl
  | ⟨1, _⟩ => rfl
  | ⟨2, _⟩ => rfl

/-- The reference's second result is the specification's sums. -/
theorem sums_eq : val_main_v26 (F := Ideal) x aff mask = sums x aff mask :=
  funext fun j => (congrArg (val_main_v26 (F := Ideal) x aff mask) (eq_ix2 j)).trans (sums_apply x aff mask (j 0) (j 1))

end Cert.RefValue

end
-- ==== Proof.FiniteInputs.lean ====
/-
  The precondition makes every argument array real.

  The precondition states, for each of the three arguments, that all entries satisfy |v| < +∞ and
  conjoins the three answers.  An extended real whose absolute value is below +∞ is neither +∞ nor −∞,
  so it is a real number; with every entry real, the distributive law that joins the two programs
  applies edge by edge.
-/
import proofs.«111357_j78005196030432_2_alg».proof.Pre_finite_inputs
import proofs.«111357_j78005196030432_2_alg».proof.Proof.LayerSpec
import Idealize.ShloMosaic.Lib.ReduceAll
import Idealize.ShloMosaic.Lib.Affine
import Idealize.ShloMosaic.Lib.WordArith
import Idealize.ShloMosaic.Lib.ValueIdx
import Idealize.ShloMosaic.PureOps.Ideal

noncomputable section

namespace Cert.FiniteInputs

open Idealize.ShloMosaic Cert.Pre_finite_inputs Cert.LayerSpec

/-- The rank-0 shape has one index. -/
instance : Subsingleton S_.Idx := ⟨fun _ _ => funext fun d => d.elim0⟩

/-- The word of +∞ denotes the top extended real. -/
theorem inf_word : Ideal.ofBits .f32 0x7F800000#32 = (⊤ : EReal) := by simp [Ideal.ofBits, Ideal.ieee]

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- … as the precondition tests it: the comparison's flag is 1. -/
theorem real_of_flag (v w : EReal) (hw : w = ⊤) (h : Ideal.cmp .olt (max v (-v)) w = 1#1) : ∃ r : ℝ, v = (r : EReal) := by
  subst hw
  refine real_of_abs_lt_top v ?_
  unfold Ideal.cmp at h
  exact of_decide_eq_true ((WordArith.ofBool_eq_one_iff _).mp h)

variable [Facts]

/-- Under the precondition every entry of x, affine and mask is a real number. -/
theorem all_real (x : FVec Ideal S4096x128 .f32) (aff : FVec Ideal S128x128x4 .f32) (mask : FVec Ideal S128x128 .f32)
    (h : fn (F := Ideal) x aff mask = fun _ => 1#1) : AllReal x ∧ AllReal aff ∧ AllReal mask := by
  have h0 := congrFun h ValueIdx.ix0
  dsimp only [fn] at h0
  obtain ⟨h12, hm⟩ := IntOp.andi_eq_one.mp h0
  obtain ⟨hx, ha⟩ := IntOp.andi_eq_one.mp h12
  refine ⟨fun j => ?_, fun j => ?_, fun j => ?_⟩
  · exact real_of_flag (x j) _ inf_word (Host.reduce_andi_all _ _ _ _ _ hx j)
  · exact real_of_flag (aff j) _ inf_word (Host.reduce_andi_all _ _ _ _ _ ha j)
  · exact real_of_flag (mask j) _ inf_word (Host.reduce_andi_all _ _ _ _ _ hm j)

end Cert.FiniteInputs

end
-- ==== Proof.lean ====
/-
  A layer of symbolic edges: every edge (o, i) of a 128 × 128 layer applies
      x ↦ c · sin (a · x + b) + d
  to its input, multiplies by a mask entry, and every output unit sums its incoming edges; both the
  masked activations [4096, 128, 128] and their sums [4096, 128] are returned.

  The reference applies the mask last, to c · sin (a · x + b) + d.  The kernel multiplies c and d by
  the mask once on the host, then walks the batch in 32 blocks of 128 rows, each block in four chunks
  of 32 rows, storing (c · mask) · sin (a · x + b) + d · mask and its sums over i.

  At the ideal instance:
  · the kernel's two result arrays end holding the folded activations and their sums, as functions of
    the launch arguments (the blocks written back tile the arrays; each block is the function's block);
  · the reference's two results are the masked-last activations and zero plus their sums;
  · the precondition makes every argument entry a real number, and on real numbers
    (c · m) · s + d · m = m · (c · s + d): the two arrangements agree edge by edge, hence sum by sum.
  The ideal pass rewrote nothing, so the idealized kernel is the kernel's own text.
-/
import proofs.«111357_j78005196030432_2_alg».proof.Defs
import proofs.«111357_j78005196030432_2_alg».proof.Proof.Gen.Kernel
import proofs.«111357_j78005196030432_2_alg».proof.Proof.Gen.Kernel.Frame
import proofs.«111357_j78005196030432_2_alg».proof.Proof.Gen.KernelIdeal
import proofs.«111357_j78005196030432_2_alg».proof.Proof.Gen.KernelIdeal.Frame
import proofs.«111357_j78005196030432_2_alg».proof.Proof.Gen.KernelIdeal.Value
import proofs.«111357_j78005196030432_2_alg».proof.Proof.Gen.ReferenceIdeal
import proofs.«111357_j78005196030432_2_alg».proof.Proof.Gen.ReferenceIdeal.Run
import proofs.«111357_j78005196030432_2_alg».proof.Proof.Gen.ReferenceIdeal.Read
import proofs.«111357_j78005196030432_2_alg».proof.Proof.Gen.Pre_finite_inputs
import proofs.«111357_j78005196030432_2_alg».proof.Proof.KernelValue
import proofs.«111357_j78005196030432_2_alg».proof.Proof.RefValue
import proofs.«111357_j78005196030432_2_alg».proof.Proof.FiniteInputs
import Idealize.ShloMosaic.Adequacy
import Idealize.ShloMosaic.Init

noncomputable section

namespace Cert.Proof

open Idealize.ShloMosaic Idealize.ShloMosaic.TcCoe Idealize.SL.Sem Cert.LayerSpec

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference is a straight line of host operations: its run, with the results forgotten. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The masked-last sums of the kernel's launch arguments, as contents of its first result. -/
abbrev specSums (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v10_0) :=
  sums (Cert.KernelValue.argX m c) (Cert.KernelValue.argAff m c) (Cert.KernelValue.argMask m c)

/-- The masked-last activations, as contents of its second result. -/
abbrev specActs (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v10_1) :=
  acts (Cert.KernelValue.argX m c) (Cert.KernelValue.argAff m c) (Cert.KernelValue.argMask m c)

/-- Both programs end with the masked-last sums and activations of arguments that agree: the reference by what
    it computes, the kernel because on the real arguments the precondition grants folding the mask in first changes
    nothing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨specSums m, specActs m, ?_, ?_⟩
  · refine (θ_run Cert.KernelIdeal.defs _ _).mono (fun r h c => ?_) (Cert.KernelValue.run m ρ)
    obtain ⟨hx, ha, hm⟩ := Cert.FiniteInputs.all_real _ _ _ (hpre c)
    exact ⟨(h c).1.trans (sumsFolded_eq_sums _ _ _ hx ha hm), (h c).2.1.trans (actsFolded_eq_acts _ _ _ hx ha hm),
      (h c).2.2⟩
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2]
      exact (Cert.ReferenceIdeal.Read.val_main_v26_eq _ _ _).trans (Cert.RefValue.sums_eq _ _ _)
    · rw [(hagree c).1, (hagree c).2.1, (hagree c).2.2]
      exact (Cert.ReferenceIdeal.Read.val_main_v25_eq _ _ _).trans (Cert.RefValue.acts_eq _ _ _)

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
